-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x16384 : Shape := ⟨2, ![16384, 16384]⟩
abbrev S16384x64 : Shape := ⟨2, ![16384, 64]⟩
abbrev S_ : Shape := ⟨0, ![]⟩

class Facts : Prop where
  bcast_S_S16384x16384 : S_.BroadcastsInDim S16384x16384 (![] : Fin 0 → Fin S16384x16384.rank)
  reducesTo_S16384x16384_S_d0_1 : S16384x16384.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_

variable [Facts]

def fn {F : FTy → Type} [FloatOps F] (main_arg0 : FVec F S16384x16384 .f32) (main_arg1 : FVec F S16384x64 .f32) : IVec S_ 1 :=
  let main_v0 : FVec F S16384x16384 .f32 := Host.absf main_arg0
  let main_cst : FVec F S_ .f32 := constant S_ .f32 0x7F800000#32
  let main_v1 : FVec F S16384x16384 .f32 := broadcastInDim S16384x16384 ![] bcast_S_S16384x16384 main_cst
  let main_v2 : IVec S16384x16384 1 := cmpf .olt main_v0 main_v1
  let main_c : IVec S_ 1 := constantI S_ 1 1#1
  let main_v3 : IVec S_ 1 := (fun x v => Host.reduce IntOp.andi x v reducesTo_S16384x16384_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x16384 : Shape := ⟨2, ![16384, 16384]⟩
abbrev S16384x64 : Shape := ⟨2, ![16384, 64]⟩
abbrev S256x8192 : Shape := ⟨2, ![256, 8192]⟩
abbrev S8192x64 : Shape := ⟨2, ![8192, 64]⟩
abbrev S256x64 : Shape := ⟨2, ![256, 64]⟩

abbrev nBuf : Space → Nat
  | .hbm => 3
  | .vmem => 6
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S16384x64, .f32⟩
  | .local _ .vmem, ⟨0, _⟩ => ⟨S256x8192, .f32⟩
  | .local _ .vmem, ⟨1, _⟩ => ⟨S256x8192, .f32⟩
  | .local _ .vmem, ⟨2, _⟩ => ⟨S8192x64, .f32⟩
  | .local _ .vmem, ⟨3, _⟩ => ⟨S8192x64, .f32⟩
  | .local _ .vmem, ⟨4, _⟩ => ⟨S256x64, .f32⟩
  | .local _ .vmem, ⟨5, _⟩ => ⟨S256x64, .f32⟩
  | _, _ => ⟨S16384x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![64, 2], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_4 : BitVec 32 := 0#32
  let v8 : BitVec 1 := Scalar.cmpi .ne v7 c0_i32_4
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x8192_S256x8192_0_0 : ∀ a, (![0, 0] : Fin 2 → Nat) a + S256x8192.size a ≤ S256x8192.size a
  h_S256x8192 : 0 < S256x8192.numel
  inb_S8192x64_S8192x64_0_0 : ∀ a, (![0, 0] : Fin 2 → Nat) a + S8192x64.size a ≤ S8192x64.size a
  h_S8192x64 : 0 < S8192x64.numel
  inb_S256x64_S256x64_0_0 : ∀ a, (![0, 0] : Fin 2 → Nat) a + S256x64.size a ≤ S256x64.size a
  h_S256x64 : 0 < S256x64.numel
  shapeCasts_S256x64_S256x64 : S256x64.ShapeCasts S256x64
  dot_S256x8192_S8192x64_S256x64_1_0_0_1_n_n_wf : DotDims.WF S256x8192 S8192x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S16384x16384.size a
  hwx0_0 : ∀ i : grid0.Coords, EltTy.bits .f32 = 32 ∨ (Rect.block (s := S16384x16384) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S16384x64.size a
  hwx0_1 : ∀ i : grid0.Coords, EltTy.bits .f32 = 32 ∨ (Rect.block (s := S16384x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S16384x64.size a
  hwx0_2 : ∀ i : grid0.Coords, EltTy.bits .f32 = 32 ∨ (Rect.block (s := S16384x64) S256x64.size (cc0_transform_2 i) (hinb0_2 i)).WholeWords (EltTy.packing .f32)

variable [Facts₀]

def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S16384x16384 : Shape := ⟨2, ![16384, 16384]⟩
abbrev S16384x64 : Shape := ⟨2, ![16384, 64]⟩

abbrev nBuf : Space → Nat
  | .hbm => 3
  | .vmem => 0
  | .smem => 0
  | _ => 0

abbrev bufTy : (tb : Table) → Fin (tcTables nBuf tb) → BufTy
  | .hbm, ⟨0, _⟩ => ⟨S16384x16384, .f32⟩
  | .hbm, ⟨1, _⟩ => ⟨S16384x64, .f32⟩
  | .hbm, ⟨2, _⟩ => ⟨S16384x64, .f32⟩
  | _, _ => ⟨S16384x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16384x16384_S16384x64_S16384x64_1_0_0_1_n_n_wf : DotDims.WF S16384x16384 S16384x64 S16384x64 [1] [0] [0] [1] [] []

variable [Facts₀]

def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf

class Facts : Prop extends Facts₀ where

variable [Facts]
-- ==== Proof.KRuns.lean ====
/-
  The kernel body's two runs.

  The product of a 16384 x 16384 matrix with a 16384 x 64 matrix is computed block row by block row (256 rows at a
  time), and for each block row in two steps, one per half of the contracted axis: the first step stores its partial
  product into the output block, the second adds its partial product to what the first left. This module runs the
  body once for each of the two steps, on any staging buffers and any contents, and names what the output buffer
  holds afterwards. Nothing here depends on how floats are read.
-/
import proofs.«162947_g68917045231879_cont_9to1_m_97_20_alg».proof.Proof.Gen.Kernel.Frame
import proofs.«162947_g68917045231879_cont_9to1_m_97_20_alg».proof.Proof.Gen.Kernel.Skeleton
import Idealize.ShloMosaic.Lib.Pipeline.Value
set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, case by case

The body loads the point's block of the left matrix (256 rows, 8192 columns of the contraction) and of the right
matrix (8192 rows of the contraction, 64 columns), multiplies them into a zero accumulator, and then does one of two
things with the 256 x 64 product, according to the parity of the second grid coordinate: at the first half of the
contraction it stores the product over whatever the output buffer held; at the second half it loads what the
buffer holds and stores that plus the product. Either way the buffer ends at ONE whole-block store, so what it
reads afterwards is that store's payload, and a whole-block load of a buffer reads its contents. -/

/-- The zero offsets of a whole-block rectangle of a matrix, spelt as the constant function. -/
theorem off_zero : (![0, 0] : Fin 2 → Nat) = fun _ => 0 := by
  funext a; fin_cases a <;> rfl

set_option maxHeartbeats 1000000 in
/-- FIRST HALF of the contraction (the first conditional taken, the second not): from the two input buffers at
    `x0`, `x1` and the output buffer at anything, the body runs and leaves the inputs as they were and the output
    buffer at the product of the two blocks. -/
theorem run_first (c : Dev nD) (i : grid0.Coords) (arg2 : Memref sig .tc .vmem S256x8192 .f32) (harg2 : arg2.IsWhole)
    (arg3 : Memref sig .tc .vmem S8192x64 .f32) (harg3 : arg3.IsWhole) (arg4 : Memref sig .tc .vmem S256x64 .f32) (harg4 : arg4.IsWhole)
    (hc0 : k0_cond1 i = 1#1) (hc1 : ¬ k0_cond2 i = 1#1)
    (x0 : Vec F S256x8192 .f32) (x1 : Vec F S8192x64 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ owns (c : Thread nD τ) arg4 fullShare (k0_pay1 x0 x1)) -∗ K ⟨⟩))
          ⊢ wp frame (wpE (defs₀ (F := F)) Variants.none c none) E (cc0__mm_body i arg2 harg2 arg3 harg3 arg4 harg4) K := by
    intro E K
    simp only [cc0__mm_body_eq_skeleton]; unfold cc0__mm_body_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    refine (View.read_writes_eq_canon _ _ _ (fun y => ⟨_, List.mem_singleton_self _, ?_⟩)).trans ?_
    · exact View.mem_set_unit_zero off_zero inb_S256x64_S256x64_0_0 y
    rw [View.canon_unit_zero off_zero]
    simp only [View.readAt_eq_ld, harg2.read_unread, harg3.read_unread,
      View.ld_unit_zero (S := S256x8192) off_zero, View.ld_unit_zero (S := S8192x64) off_zero]

set_option maxHeartbeats 1000000 in
/-- SECOND HALF of the contraction (the first conditional not taken, the second taken): from the two input buffers
    at `x0`, `x1` and the output buffer at `xo`, the body runs and leaves the inputs as they were and the output
    buffer at `xo` plus the product of the two blocks. -/
theorem run_second (c : Dev nD) (i : grid0.Coords) (arg2 : Memref sig .tc .vmem S256x8192 .f32) (harg2 : arg2.IsWhole)
    (arg3 : Memref sig .tc .vmem S8192x64 .f32) (harg3 : arg3.IsWhole) (arg4 : Memref sig .tc .vmem S256x64 .f32) (harg4 : arg4.IsWhole)
    (hc0 : ¬ k0_cond1 i = 1#1) (hc1 : k0_cond2 i = 1#1)
    (x0 : Vec F S256x8192 .f32) (x1 : Vec F S8192x64 .f32) (xo : Vec F S256x64 .f32) :
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ owns (c : Thread nD τ) arg4 fullShare (k0_pay2 x0 x1 xo)) -∗ K ⟨⟩))
          ⊢ wp frame (wpE (defs₀ (F := F)) Variants.none c none) E (cc0__mm_body i arg2 harg2 arg3 harg3 arg4 harg4) K := by
    intro E K
    simp only [cc0__mm_body_eq_skeleton]; unfold cc0__mm_body_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    refine (View.read_writes_eq_canon _ _ _ (fun y => ⟨_, List.mem_singleton_self _, ?_⟩)).trans ?_
    · exact View.mem_set_unit_zero off_zero inb_S256x64_S256x64_0_0 y
    rw [View.canon_unit_zero off_zero]
    simp only [View.readAt_eq_ld, harg2.read_unread, harg3.read_unread, harg4.read_unread,
      View.ld_unit_zero (S := S256x8192) off_zero, View.ld_unit_zero (S := S8192x64) off_zero,
      View.ld_unit_zero (S := S256x64) off_zero]

end Cert.Kernel.Acc

end
-- ==== Proof.KFrame.lean ====
/-
  The frame of the blocked matrix product, and what its output buffer holds point by point.

  The grid has 128 points: point t works on block row t / 2 and on half t % 2 of the contracted axis. The output
  block of a block row stays in its staging buffer over the row's two points and is written back after the second.
  So after an even point the buffer holds the first half's partial product, and after the odd point that follows it
  holds that plus the second half's partial product; only the latter is ever written back to the array.
-/
import proofs.«162947_g68917045231879_cont_9to1_m_97_20_alg».proof.Proof.Gen.Kernel.Frame
import proofs.«162947_g68917045231879_cont_9to1_m_97_20_alg».proof.Proof.Gen.Kernel.Skeleton
import proofs.«162947_g68917045231879_cont_9to1_m_97_20_alg».proof.Proof.KRuns
set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, the idle table and the staging buffers -/

/-- The first conditional is taken at the even points (the first half of the contraction), -/
theorem cond_first : ∀ t : Fin cfg0.N, k0_cond1 (grid0.coords t) = 1#1 ↔ t.val % 2 = 0 :=
  (by decide +kernel : ∀ t : Fin grid0.N, k0_cond1 (grid0.coords t) = 1#1 ↔ t.val % 2 = 0)
/-- the second at the odd points (the second half). -/
theorem cond_second : ∀ t : Fin cfg0.N, k0_cond2 (grid0.coords t) = 1#1 ↔ t.val % 2 = 1 :=
  (by decide +kernel : ∀ t : Fin grid0.N, k0_cond2 (grid0.coords t) = 1#1 ↔ t.val % 2 = 1)

/-- The inputs are never idle. -/
theorem live_left : ∀ t : Fin cfg0.N, cfg0.idle 0 (grid0.coords t) = false := by decide +kernel
theorem live_right : ∀ t : Fin cfg0.N, cfg0.idle 1 (grid0.coords t) = false := by decide +kernel
/-- The second grid coordinate is 0 or 1, so one of the two conditionals is always taken: the output window is
    idle at no coordinates at all. -/
theorem live_out (i : grid0.Coords) : cfg0.idle 2 i = false := by
  have h : ∀ j : Fin 2,
      (!(Scalar.cmpi .ne (Scalar.extui (Scalar.cmpi .eq (BitVec.ofNat 32 j.val) 0#32)) 0#32 == 1#1)
        && !(Scalar.cmpi .ne (Scalar.extui (Scalar.cmpi .eq (BitVec.ofNat 32 j.val) 1#32)) 0#32 == 1#1)) = false := by
    decide +kernel
  exact h (i 1)

/-- Each window's current staging buffer at point `t`, as the pipeline passes it to the body, and its wholeness. -/
abbrev buf_left (t : Fin cfg0.N) : Memref sig .tc .vmem S256x8192 .f32 := win0_0.stage (cfg0.slots t 0)
abbrev whole_left (t : Fin cfg0.N) : (buf_left t).IsWhole := hstage0_0 ((cfg0.slots t 0).cast nbuf0_0)
abbrev buf_right (t : Fin cfg0.N) : Memref sig .tc .vmem S8192x64 .f32 := win0_1.stage (cfg0.slots t 1)
abbrev whole_right (t : Fin cfg0.N) : (buf_right t).IsWhole := hstage0_1 ((cfg0.slots t 1).cast nbuf0_1)
abbrev buf_out (t : Fin cfg0.N) : Memref sig .tc .vmem S256x64 .f32 := win0_2.stage (cfg0.slots t 2)
abbrev whole_out (t : Fin cfg0.N) : (buf_out t).IsWhole := hstage0_2 ((cfg0.slots t 2).cast nbuf0_2)

/-! ## What the output buffer holds after each point -/

/-- The point before `t` (point 0 for `t = 0`, where it is never used). -/
abbrev prev (t : Fin cfg0.N) : Fin cfg0.N := ⟨t.val - 1, Nat.lt_of_le_of_lt (Nat.sub_le _ _) t.isLt⟩

/-- The partial product of point `t`: its block of the left matrix times its block of the right one. -/
def part (c : Dev nD) (t : Fin cfg0.N) : Vec F S256x64 .f32 := k0_pay1 (iblk m c 0 t) (iblk m c 1 t)

/-- After an even point the output buffer holds that point's partial product; after an odd point, the partial
    product of the point before with this point's added to it. -/
def outAt (c : Dev nD) (t : Fin cfg0.N) : Vec F S256x64 .f32 :=
  if t.val % 2 = 0 then part m c t else k0_pay2 (iblk m c 0 t) (iblk m c 1 t) (part m c (prev t))

theorem outAt_even (c : Dev nD) (t : Fin cfg0.N) (h : t.val % 2 = 0) : outAt m c t = part m c t := if_pos h
theorem outAt_odd (c : Dev nD) (t : Fin cfg0.N) (h : ¬t.val % 2 = 0) :
    outAt m c t = k0_pay2 (iblk m c 0 t) (iblk m c 1 t) (part m c (prev t)) := if_neg h

/-! ## The proof data -/

/-- The arrays as the region finds them; after the body each input buffer at its block and the output buffer at
    `outAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_left (c : Dev nD) (t : Fin cfg0.N) : (dats m 0 c).after 0 t = iblk m c 0 t := by dsimp only [dats]
theorem after_right (c : Dev nD) (t : Fin cfg0.N) : (dats m 0 c).after 1 t = iblk m c 1 t := by dsimp only [dats]
theorem after_out (c : Dev nD) (t : Fin cfg0.N) : (dats m 0 c).after 2 t = outAt m c t := by dsimp only [dats]

/-- Each input's current staging buffer holds its block at every point. -/
theorem before_left (c : Dev nD) (t : Fin cfg0.N) (d) : (dats m 0 c).before 0 t d = iblk m c 0 t :=
  before0_0_of m (dats m 0 c) (A_eq m c 0) (after_left m c) t d
theorem before_right (c : Dev nD) (t : Fin cfg0.N) (d) : (dats m 0 c).before 1 t d = iblk m c 1 t :=
  before0_1_of m (dats m 0 c) (A_eq m c 1) (after_right m c) t d

/-- At an odd point the output buffer still holds what the even point before left: that point did not write the
    block back, and the window is live and uncut. -/
theorem before_out_odd (c : Dev nD) (t : Fin cfg0.N) (h1 : t.val % 2 = 1) (d) :
    (dats m 0 c).before 2 t d = part m c (prev t) := by
  have hN : t.val < 128 := lt_of_lt_of_eq t.isLt (show cfg0.N = 128 from N_0)
  rw [Dat.before_out_kept _ 2 rfl t (by omega)
    (Bool.eq_false_iff.mpr fun h => by have := (flush0_2 _).mp h; dsimp only at this; omega)
    live_out (fun _ _ => rfl), after_out]
  exact outAt_even m c _ (by dsimp only; omega)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf_left t) fullShare ((dats m 0 c).before 0 t d))
    ∗ (∃ d, owns (c : Thread nD τ) (buf_right t) fullShare ((dats m 0 c).before 1 t d))
    ∗ (∃ d, owns (c : Thread nD τ) (buf_out t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs' buffers hold their blocks; by the parity of the point one of the two runs
    applies — at an odd point on the output buffer at what the even point before left —; the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_left, before_right]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (buf_left t) fullShare ((dats m 0 c).after 0 t) from by
      unfold Dat.leavesExact; rw [live_left t],
    show (dats m 0 c).leavesExact 1 t = owns (c : Thread nD τ) (buf_right t) fullShare ((dats m 0 c).after 1 t) from by
      unfold Dat.leavesExact; rw [live_right t],
    show (dats m 0 c).leavesExact 2 t = owns (c : Thread nD τ) (buf_out t) fullShare ((dats m 0 c).after 2 t) from by
      unfold Dat.leavesExact; rw [live_out (grid0.coords t)],
    after_left, after_right, after_out]
  have hN : t.val < 128 := lt_of_lt_of_eq t.isLt (show cfg0.N = 128 from N_0)
  by_cases h0 : t.val % 2 = 0
  · have h1 : ¬t.val % 2 = 1 := by omega
    rw [outAt_even m c t h0]
    unfold part
    iintro ⟨HΦ, Ho, ⟨%d0, H0⟩, ⟨%d1, H1⟩, ⟨%d2, H2⟩⟩
    iapply ((run_first c (grid0.coords t) _ _ _ _ _ _ ((cond_first t).mpr h0) (fun h => h1 ((cond_second t).mp h)) (iblk m c 0 t) (iblk m c 1 t)) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · have h1 : t.val % 2 = 1 := by omega
    rw [outAt_odd m c t h0]
    simp only [before_out_odd m c t h1]
    iintro ⟨HΦ, Ho, ⟨%d0, H0⟩, ⟨%d1, H1⟩, ⟨%d2, H2⟩⟩
    iapply ((run_second c (grid0.coords t) _ _ _ _ _ _ (fun h => h0 ((cond_first t).mp h)) ((cond_second t).mpr h1) (iblk m c 0 t) (iblk m c 1 t) (part m c (prev t))) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the pipeline at
    what the write-backs make of the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its two argument arrays end unchanged, however floats are read. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Acc

end
-- ==== Proof.KiRuns.lean ====
/-
  The kernel body's two runs.

  The product of a 16384 x 16384 matrix with a 16384 x 64 matrix is computed block row by block row (256 rows at a
  time), and for each block row in two steps, one per half of the contracted axis: the first step stores its partial
  product into the output block, the second adds its partial product to what the first left. This module runs the
  body once for each of the two steps, on any staging buffers and any contents, and names what the output buffer
  holds afterwards. Nothing here depends on how floats are read.
-/
import proofs.«162947_g68917045231879_cont_9to1_m_97_20_alg».proof.Proof.Gen.KernelIdeal.Frame
import proofs.«162947_g68917045231879_cont_9to1_m_97_20_alg».proof.Proof.Gen.KernelIdeal.Skeleton
import Idealize.ShloMosaic.Lib.Pipeline.Value
set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, case by case

The body loads the point's block of the left matrix (256 rows, 8192 columns of the contraction) and of the right
matrix (8192 rows of the contraction, 64 columns), multiplies them into a zero accumulator, and then does one of two
things with the 256 x 64 product, according to the parity of the second grid coordinate: at the first half of the
contraction it stores the product over whatever the output buffer held; at the second half it loads what the
buffer holds and stores that plus the product. Either way the buffer ends at ONE whole-block store, so what it
reads afterwards is that store's payload, and a whole-block load of a buffer reads its contents. -/

/-- The zero offsets of a whole-block rectangle of a matrix, spelt as the constant function. -/
theorem off_zero : (![0, 0] : Fin 2 → Nat) = fun _ => 0 := by
  funext a; fin_cases a <;> rfl

set_option maxHeartbeats 1000000 in
/-- FIRST HALF of the contraction (the first conditional taken, the second not): from the two input buffers at
    `x0`, `x1` and the output buffer at anything, the body runs and leaves the inputs as they were and the output
    buffer at the product of the two blocks. -/
theorem run_first (c : Dev nD) (i : grid0.Coords) (arg2 : Memref sig .tc .vmem S256x8192 .f32) (harg2 : arg2.IsWhole)
    (arg3 : Memref sig .tc .vmem S8192x64 .f32) (harg3 : arg3.IsWhole) (arg4 : Memref sig .tc .vmem S256x64 .f32) (harg4 : arg4.IsWhole)
    (hc0 : k0_cond1 i = 1#1) (hc1 : ¬ k0_cond2 i = 1#1)
    (x0 : Vec F S256x8192 .f32) (x1 : Vec F S8192x64 .f32) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ owns (c : Thread nD τ) arg4 fullShare (k0_pay1 x0 x1)) -∗ K ⟨⟩))
          ⊢ wp frame (wpE (defs₀ (F := F)) Variants.none c none) E (cc0__mm_body i arg2 harg2 arg3 harg3 arg4 harg4) K := by
    intro E K
    simp only [cc0__mm_body_eq_skeleton]; unfold cc0__mm_body_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    refine (View.read_writes_eq_canon _ _ _ (fun y => ⟨_, List.mem_singleton_self _, ?_⟩)).trans ?_
    · exact View.mem_set_unit_zero off_zero inb_S256x64_S256x64_0_0 y
    rw [View.canon_unit_zero off_zero]
    simp only [View.readAt_eq_ld, harg2.read_unread, harg3.read_unread,
      View.ld_unit_zero (S := S256x8192) off_zero, View.ld_unit_zero (S := S8192x64) off_zero]

set_option maxHeartbeats 1000000 in
/-- SECOND HALF of the contraction (the first conditional not taken, the second taken): from the two input buffers
    at `x0`, `x1` and the output buffer at `xo`, the body runs and leaves the inputs as they were and the output
    buffer at `xo` plus the product of the two blocks. -/
theorem run_second (c : Dev nD) (i : grid0.Coords) (arg2 : Memref sig .tc .vmem S256x8192 .f32) (harg2 : arg2.IsWhole)
    (arg3 : Memref sig .tc .vmem S8192x64 .f32) (harg3 : arg3.IsWhole) (arg4 : Memref sig .tc .vmem S256x64 .f32) (harg4 : arg4.IsWhole)
    (hc0 : ¬ k0_cond1 i = 1#1) (hc1 : k0_cond2 i = 1#1)
    (x0 : Vec F S256x8192 .f32) (x1 : Vec F S8192x64 .f32) (xo : Vec F S256x64 .f32) :
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1 ∗ owns (c : Thread nD τ) arg4 fullShare (k0_pay2 x0 x1 xo)) -∗ K ⟨⟩))
          ⊢ wp frame (wpE (defs₀ (F := F)) Variants.none c none) E (cc0__mm_body i arg2 harg2 arg3 harg3 arg4 harg4) K := by
    intro E K
    simp only [cc0__mm_body_eq_skeleton]; unfold cc0__mm_body_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; isplitr; swap; · iexact H2
    ipureintro
    refine (View.read_writes_eq_canon _ _ _ (fun y => ⟨_, List.mem_singleton_self _, ?_⟩)).trans ?_
    · exact View.mem_set_unit_zero off_zero inb_S256x64_S256x64_0_0 y
    rw [View.canon_unit_zero off_zero]
    simp only [View.readAt_eq_ld, harg2.read_unread, harg3.read_unread, harg4.read_unread,
      View.ld_unit_zero (S := S256x8192) off_zero, View.ld_unit_zero (S := S8192x64) off_zero,
      View.ld_unit_zero (S := S256x64) off_zero]

end Cert.KernelIdeal.Acc

end
-- ==== Proof.KiFrame.lean ====
/-
  The frame of the blocked matrix product, and what its output buffer holds point by point.

  The grid has 128 points: point t works on block row t / 2 and on half t % 2 of the contracted axis. The output
  block of a block row stays in its staging buffer over the row's two points and is written back after the second.
  So after an even point the buffer holds the first half's partial product, and after the odd point that follows it
  holds that plus the second half's partial product; only the latter is ever written back to the array.
-/
import proofs.«162947_g68917045231879_cont_9to1_m_97_20_alg».proof.Proof.Gen.KernelIdeal.Frame
import proofs.«162947_g68917045231879_cont_9to1_m_97_20_alg».proof.Proof.Gen.KernelIdeal.Skeleton
import proofs.«162947_g68917045231879_cont_9to1_m_97_20_alg».proof.Proof.KiRuns
set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, the idle table and the staging buffers -/

/-- The first conditional is taken at the even points (the first half of the contraction), -/
theorem cond_first : ∀ t : Fin cfg0.N, k0_cond1 (grid0.coords t) = 1#1 ↔ t.val % 2 = 0 :=
  (by decide +kernel : ∀ t : Fin grid0.N, k0_cond1 (grid0.coords t) = 1#1 ↔ t.val % 2 = 0)
/-- the second at the odd points (the second half). -/
theorem cond_second : ∀ t : Fin cfg0.N, k0_cond2 (grid0.coords t) = 1#1 ↔ t.val % 2 = 1 :=
  (by decide +kernel : ∀ t : Fin grid0.N, k0_cond2 (grid0.coords t) = 1#1 ↔ t.val % 2 = 1)

/-- The inputs are never idle. -/
theorem live_left : ∀ t : Fin cfg0.N, cfg0.idle 0 (grid0.coords t) = false := by decide +kernel
theorem live_right : ∀ t : Fin cfg0.N, cfg0.idle 1 (grid0.coords t) = false := by decide +kernel
/-- The second grid coordinate is 0 or 1, so one of the two conditionals is always taken: the output window is
    idle at no coordinates at all. -/
theorem live_out (i : grid0.Coords) : cfg0.idle 2 i = false := by
  have h : ∀ j : Fin 2,
      (!(Scalar.cmpi .ne (Scalar.extui (Scalar.cmpi .eq (BitVec.ofNat 32 j.val) 0#32)) 0#32 == 1#1)
        && !(Scalar.cmpi .ne (Scalar.extui (Scalar.cmpi .eq (BitVec.ofNat 32 j.val) 1#32)) 0#32 == 1#1)) = false := by
    decide +kernel
  exact h (i 1)

/-- Each window's current staging buffer at point `t`, as the pipeline passes it to the body, and its wholeness. -/
abbrev buf_left (t : Fin cfg0.N) : Memref sig .tc .vmem S256x8192 .f32 := win0_0.stage (cfg0.slots t 0)
abbrev whole_left (t : Fin cfg0.N) : (buf_left t).IsWhole := hstage0_0 ((cfg0.slots t 0).cast nbuf0_0)
abbrev buf_right (t : Fin cfg0.N) : Memref sig .tc .vmem S8192x64 .f32 := win0_1.stage (cfg0.slots t 1)
abbrev whole_right (t : Fin cfg0.N) : (buf_right t).IsWhole := hstage0_1 ((cfg0.slots t 1).cast nbuf0_1)
abbrev buf_out (t : Fin cfg0.N) : Memref sig .tc .vmem S256x64 .f32 := win0_2.stage (cfg0.slots t 2)
abbrev whole_out (t : Fin cfg0.N) : (buf_out t).IsWhole := hstage0_2 ((cfg0.slots t 2).cast nbuf0_2)

/-! ## What the output buffer holds after each point -/

/-- The point before `t` (point 0 for `t = 0`, where it is never used). -/
abbrev prev (t : Fin cfg0.N) : Fin cfg0.N := ⟨t.val - 1, Nat.lt_of_le_of_lt (Nat.sub_le _ _) t.isLt⟩

/-- The partial product of point `t`: its block of the left matrix times its block of the right one. -/
def part (c : Dev nD) (t : Fin cfg0.N) : Vec F S256x64 .f32 := k0_pay1 (iblk m c 0 t) (iblk m c 1 t)

/-- After an even point the output buffer holds that point's partial product; after an odd point, the partial
    product of the point before with this point's added to it. -/
def outAt (c : Dev nD) (t : Fin cfg0.N) : Vec F S256x64 .f32 :=
  if t.val % 2 = 0 then part m c t else k0_pay2 (iblk m c 0 t) (iblk m c 1 t) (part m c (prev t))

theorem outAt_even (c : Dev nD) (t : Fin cfg0.N) (h : t.val % 2 = 0) : outAt m c t = part m c t := if_pos h
theorem outAt_odd (c : Dev nD) (t : Fin cfg0.N) (h : ¬t.val % 2 = 0) :
    outAt m c t = k0_pay2 (iblk m c 0 t) (iblk m c 1 t) (part m c (prev t)) := if_neg h

/-! ## The proof data -/

/-- The arrays as the region finds them; after the body each input buffer at its block and the output buffer at
    `outAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_left (c : Dev nD) (t : Fin cfg0.N) : (dats m 0 c).after 0 t = iblk m c 0 t := by dsimp only [dats]
theorem after_right (c : Dev nD) (t : Fin cfg0.N) : (dats m 0 c).after 1 t = iblk m c 1 t := by dsimp only [dats]
theorem after_out (c : Dev nD) (t : Fin cfg0.N) : (dats m 0 c).after 2 t = outAt m c t := by dsimp only [dats]

/-- Each input's current staging buffer holds its block at every point. -/
theorem before_left (c : Dev nD) (t : Fin cfg0.N) (d) : (dats m 0 c).before 0 t d = iblk m c 0 t :=
  before0_0_of m (dats m 0 c) (A_eq m c 0) (after_left m c) t d
theorem before_right (c : Dev nD) (t : Fin cfg0.N) (d) : (dats m 0 c).before 1 t d = iblk m c 1 t :=
  before0_1_of m (dats m 0 c) (A_eq m c 1) (after_right m c) t d

/-- At an odd point the output buffer still holds what the even point before left: that point did not write the
    block back, and the window is live and uncut. -/
theorem before_out_odd (c : Dev nD) (t : Fin cfg0.N) (h1 : t.val % 2 = 1) (d) :
    (dats m 0 c).before 2 t d = part m c (prev t) := by
  have hN : t.val < 128 := lt_of_lt_of_eq t.isLt (show cfg0.N = 128 from N_0)
  rw [Dat.before_out_kept _ 2 rfl t (by omega)
    (Bool.eq_false_iff.mpr fun h => by have := (flush0_2 _).mp h; dsimp only at this; omega)
    live_out (fun _ _ => rfl), after_out]
  exact outAt_even m c _ (by dsimp only; omega)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (buf_left t) fullShare ((dats m 0 c).before 0 t d))
    ∗ (∃ d, owns (c : Thread nD τ) (buf_right t) fullShare ((dats m 0 c).before 1 t d))
    ∗ (∃ d, owns (c : Thread nD τ) (buf_out t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the inputs' buffers hold their blocks; by the parity of the point one of the two runs
    applies — at an odd point on the output buffer at what the even point before left —; the invariant passes
    through unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_left, before_right]
  rw [show (dats m 0 c).Φ t.succ = (dats m 0 c).Φ t.castSucc from rfl,
    show (dats m 0 c).owesAt () t.succ = (dats m 0 c).owesAt () t.castSucc from rfl,
    show (dats m 0 c).leavesExact 0 t = owns (c : Thread nD τ) (buf_left t) fullShare ((dats m 0 c).after 0 t) from by
      unfold Dat.leavesExact; rw [live_left t],
    show (dats m 0 c).leavesExact 1 t = owns (c : Thread nD τ) (buf_right t) fullShare ((dats m 0 c).after 1 t) from by
      unfold Dat.leavesExact; rw [live_right t],
    show (dats m 0 c).leavesExact 2 t = owns (c : Thread nD τ) (buf_out t) fullShare ((dats m 0 c).after 2 t) from by
      unfold Dat.leavesExact; rw [live_out (grid0.coords t)],
    after_left, after_right, after_out]
  have hN : t.val < 128 := lt_of_lt_of_eq t.isLt (show cfg0.N = 128 from N_0)
  by_cases h0 : t.val % 2 = 0
  · have h1 : ¬t.val % 2 = 1 := by omega
    rw [outAt_even m c t h0]
    unfold part
    iintro ⟨HΦ, Ho, ⟨%d0, H0⟩, ⟨%d1, H1⟩, ⟨%d2, H2⟩⟩
    iapply ((run_first c (grid0.coords t) _ _ _ _ _ _ ((cond_first t).mpr h0) (fun h => h1 ((cond_second t).mp h)) (iblk m c 0 t) (iblk m c 1 t)) Set.univ _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · have h1 : t.val % 2 = 1 := by omega
    rw [outAt_odd m c t h0]
    simp only [before_out_odd m c t h1]
    iintro ⟨HΦ, Ho, ⟨%d0, H0⟩, ⟨%d1, H1⟩, ⟨%d2, H2⟩⟩
    iapply ((run_second c (grid0.coords t) _ _ _ _ _ _ (fun h => h0 ((cond_first t).mp h)) ((cond_second t).mpr h1) (iblk m c 0 t) (iblk m c 1 t) (part m c (prev t))) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has each array of the pipeline at
    what the write-backs make of the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its two argument arrays end unchanged, however floats are read. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Acc

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.Halves.lean ====
/-
  The product of a 16384 x 16384 matrix with a 16384 x 64 matrix over the extended reals, entry by entry, and the
  one law the two programs differ by: the sum over the 16384 contracted indices is the sum over the first 8192 of
  them plus the sum over the last 8192. The law uses only that addition is commutative and associative, which holds
  on the extended reals with their infinities, so no entry needs to be finite.
-/
import Idealize.ShloMosaic.PureOps.Ideal.Laws
import Idealize.ShloMosaic.Lib.ValueIdx

noncomputable section

namespace Cert.MatProd

open Idealize.ShloMosaic Idealize.ShloMosaic.ValueIdx

/-- Entry (row, column) of the product: the row of the left matrix against the column of the right one. -/
def prod (A : (⟨2, ![16384, 16384]⟩ : Shape).Idx → EReal) (B : (⟨2, ![16384, 64]⟩ : Shape).Idx → EReal) :
    (⟨2, ![16384, 64]⟩ : Shape).Idx → EReal :=
  fun i => ∑ k : Fin 16384, A (ix2 (i 0) k) * B (ix2 k (i 1))

theorem prod_at (A : (⟨2, ![16384, 16384]⟩ : Shape).Idx → EReal) (B : (⟨2, ![16384, 64]⟩ : Shape).Idx → EReal)
    (r : Fin 16384) (q : Fin 64) : prod A B (ix2 r q) = ∑ k : Fin 16384, A (ix2 r k) * B (ix2 k q) := rfl

/-- Contracted index `k` of the first half, and of the second half, as an index of the whole axis. -/
abbrev lo (k : Fin 8192) : Fin 16384 := ⟨k.val, Nat.lt_of_lt_of_le k.isLt (by decide)⟩
abbrev hi (k : Fin 8192) : Fin 16384 := ⟨8192 + k.val, Nat.add_lt_add_left k.isLt 8192⟩

/-- A sum over the whole contracted axis is the sum over its first half plus the sum over its second half. -/
theorem sum_halves {α : Type*} [AddCommMonoid α] (f : Fin 16384 → α) :
    ∑ k : Fin 16384, f k = ∑ k : Fin 8192, f (lo k) + ∑ k : Fin 8192, f (hi k) :=
  Fin.sum_univ_add (a := 8192) (b := 8192) (f : Fin (8192 + 8192) → α)

/-- So an entry of the product is the first half's partial product plus the second half's. -/
theorem prod_halves (A : (⟨2, ![16384, 16384]⟩ : Shape).Idx → EReal) (B : (⟨2, ![16384, 64]⟩ : Shape).Idx → EReal)
    (r : Fin 16384) (q : Fin 64) :
    prod A B (ix2 r q)
      = (∑ k : Fin 8192, A (ix2 r (lo k)) * B (ix2 (lo k) q)) + ∑ k : Fin 8192, A (ix2 r (hi k)) * B (ix2 (hi k) q) := by
  rw [prod_at]
  exact sum_halves fun k => A (ix2 r k) * B (ix2 k q)

end Cert.MatProd

end
-- ==== Proof.KiValue.lean ====
/-
  What the blocked kernel leaves in its result array, read as extended reals.

  Point t of the grid works on block row t / 2 (256 rows) and on half t % 2 of the contracted axis (8192 indices).
  Its block of the left matrix starts at row 256 (t / 2) and column 8192 (t % 2); its block of the right matrix at
  row 8192 (t % 2). The result's block of a block row is written back once, after the odd point, when it holds the
  first half's partial product plus the second half's: entry by entry that is the full row-by-column sum. The 64
  blocks written back tile the result array, so the array ends as the product of the two argument arrays.
-/
import proofs.«162947_g68917045231879_cont_9to1_m_97_20_alg».proof.Proof.KiFrame
import proofs.«162947_g68917045231879_cont_9to1_m_97_20_alg».proof.Proof.LibPlainDot
import proofs.«162947_g68917045231879_cont_9to1_m_97_20_alg».proof.Proof.Halves
import Idealize.ShloMosaic.Lib.Pipeline.Value
import Idealize.ShloMosaic.Lib.ValueIdx
import Idealize.ShloMosaic.PureOps.Ideal.Laws

set_option maxRecDepth 16384

noncomputable section

namespace Cert.KernelIdeal.AccValue

open Cert.KernelIdeal Cert.KernelIdeal.Gen Cert.KernelIdeal.Acc Cert.MatProd
open Idealize.ShloMosaic Idealize.ShloMosaic.TcCoe Idealize.ShloMosaic.ValueIdx Idealize.SL.Sem
open Idealize.ShloMosaic.Pipeline (Dat)

/-! ## The body's arithmetic at an entry -/

/-- A partial product at entry (p, q): row p of the left block against column q of the right block. -/
theorem part_at (x0 : Vec Ideal S256x8192 .f32) (x1 : Vec Ideal S8192x64 .f32) (p : Fin 256) (q : Fin 64) :
    k0_pay1 (F := Ideal) x0 x1 (ix2 p q) = ∑ k : Fin 8192, x0 (ix2 p k) * x1 (ix2 k q) := by
  unfold k0_pay1
  exact Cert.Lib.PlainDot.matmul_zero_apply 256 8192 64 none x0 x1 (ix2 p q)

/-- The accumulating step at entry (p, q): what the buffer held there plus the partial product. -/
theorem acc_at (x0 : Vec Ideal S256x8192 .f32) (x1 : Vec Ideal S8192x64 .f32) (xo : Vec Ideal S256x64 .f32) (p : Fin 256) (q : Fin 64) :
    k0_pay2 (F := Ideal) x0 x1 xo (ix2 p q) = xo (ix2 p q) + ∑ k : Fin 8192, x0 (ix2 p k) * x1 (ix2 k q) := by
  unfold k0_pay2
  show addf (shapeCast S256x64 xo shapeCasts_S256x64_S256x64) (k0_pay1 x0 x1) (ix2 p q) = _
  rw [addf_apply, shapeCast_self, part_at]

/-- Both steps together: the first half's partial product plus the second half's. -/
theorem halves_at (l0 l1 : Vec Ideal S256x8192 .f32) (r0 r1 : Vec Ideal S8192x64 .f32) (p : Fin 256) (q : Fin 64) :
    k0_pay2 (F := Ideal) l1 r1 (k0_pay1 l0 r0) (ix2 p q)
      = (∑ k : Fin 8192, l0 (ix2 p k) * r0 (ix2 k q)) + ∑ k : Fin 8192, l1 (ix2 p k) * r1 (ix2 k q) := by
  rw [acc_at, part_at]

variable (m : (ℓ : Loc nD τ sig) → Buf (Elt Ideal) ℓ) (ρ : Dev nD → PrngReg)

/-! ## Where a point's blocks sit in the arrays -/

/-- The printed index maps, decided over the grid: block row and half of each window at point t. -/
theorem idx_facts : ∀ t : Fin cfg0.N,
    win0_0.index t (0 : Fin 2) = t.val / 2 ∧ win0_0.index t (1 : Fin 2) = t.val % 2
    ∧ win0_1.index t (0 : Fin 2) = t.val % 2 ∧ win0_1.index t (1 : Fin 2) = 0
    ∧ win0_2.index t (0 : Fin 2) = t.val / 2 ∧ win0_2.index t (1 : Fin 2) = 0 :=
  (by decide +kernel : ∀ t : Fin grid0.N, _)

/-- Entry (p, k) of point t's block of the left matrix is the array's entry at row 256 (t / 2) + p and
    column 8192 (t % 2) + k. -/
theorem left_read (c : Dev nD) (t : Fin cfg0.N) (p : Fin 256) (k : Fin 8192) (r kk : Fin 16384)
    (hr : r.val = 256 * (t.val / 2) + p.val) (hk : kk.val = 8192 * (t.val % 2) + k.val) :
    iblk m c 0 t (ix2 p k) = V m c main_arg0 (ix2 r kk) := by
  obtain ⟨e0, e1, -⟩ := idx_facts t
  unfold iblk
  rw [View.read_apply]
  show V m c main_arg0 (((cfg0.win 0).blk t).view.emb (ix2 p k)) = V m c main_arg0 (ix2 r kk)
  congr 1
  funext a; apply Fin.ext
  match a with
  | ⟨0, _⟩ => show win0_0.index t (0 : Fin 2) * 256 + 1 * p.val = r.val; omega
  | ⟨1, _⟩ => show win0_0.index t (1 : Fin 2) * 8192 + 1 * k.val = kk.val; omega

/-- Entry (k, q) of point t's block of the right matrix is the array's entry at row 8192 (t % 2) + k, column q. -/
theorem right_read (c : Dev nD) (t : Fin cfg0.N) (k : Fin 8192) (q : Fin 64) (kk : Fin 16384)
    (hk : kk.val = 8192 * (t.val % 2) + k.val) :
    iblk m c 1 t (ix2 k q) = V m c main_arg1 (ix2 kk q) := by
  obtain ⟨-, -, e2, e3, -⟩ := idx_facts t
  unfold iblk
  rw [View.read_apply]
  show V m c main_arg1 (((cfg0.win 1).blk t).view.emb (ix2 k q)) = V m c main_arg1 (ix2 kk q)
  congr 1
  funext a; apply Fin.ext
  match a with
  | ⟨0, _⟩ => show win0_1.index t (0 : Fin 2) * 8192 + 1 * k.val = kk.val; omega
  | ⟨1, _⟩ => show win0_1.index t (1 : Fin 2) * 64 + 1 * q.val = q.val; omega

/-! ## What an odd point leaves: entries of the product -/

/-- After an odd point t the output buffer's entry (p, q) is the product's entry at row 256 (t / 2) + p, column q:
    the point before read the first half of that row and column, this one the second half. -/
theorem out_odd_at (c : Dev nD) (t : Fin cfg0.N) (h1 : t.val % 2 = 1) (p : Fin 256) (q : Fin 64) (r : Fin 16384)
    (hr : r.val = 256 * (t.val / 2) + p.val) :
    outAt m c t (ix2 p q) = prod (V m c main_arg0) (V m c main_arg1) (ix2 r q) := by
  have hp : (prev t).val = t.val - 1 := rfl
  rw [outAt_odd m c t (by omega)]
  unfold part
  refine (halves_at (iblk m c 0 (prev t)) (iblk m c 0 t) (iblk m c 1 (prev t)) (iblk m c 1 t) p q).trans ?_
  rw [prod_halves]
  congr 1
  · refine Finset.sum_congr rfl fun k _ => ?_
    rw [left_read m c (prev t) p k r (lo k) (by rw [hp]; omega) (by rw [hp]; show k.val = _; omega),
      right_read m c (prev t) k q (lo k) (by rw [hp]; show k.val = _; omega)]
  · refine Finset.sum_congr rfl fun k _ => ?_
    rw [left_read m c t p k r (hi k) hr (by show 8192 + k.val = _; omega),
      right_read m c t k q (hi k) (by show 8192 + k.val = _; omega)]

/-! ## From the blocks to the array -/

/-- Entry y of what an odd point t leaves in the output buffer is the product's entry at the array index y has in
    t's block of the result. -/
theorem flushed_at (c : Dev nD) (t : Fin cfg0.N) (h1 : t.val % 2 = 1) (y : S256x64.Idx) :
    outAt m c t y = prod (V m c main_arg0) (V m c main_arg1) (((cfg0.win 2).blk t).view.emb y) := by
  have hN : t.val < 128 := lt_of_lt_of_eq t.isLt (show cfg0.N = 128 from N_0)
  obtain ⟨-, -, -, -, e4, e5⟩ := idx_facts t
  obtain ⟨p, q, rfl⟩ : ∃ (p : Fin 256) (q : Fin 64), y = ix2 p q := ⟨y 0, y 1, eq_ix2 y⟩
  refine (out_odd_at m c t h1 p q ⟨256 * (t.val / 2) + p.val, by omega⟩ rfl).trans ?_
  congr 1
  funext a; apply Fin.ext
  match a with
  | ⟨0, _⟩ => show 256 * (t.val / 2) + p.val = win0_2.index t (0 : Fin 2) * 256 + 1 * p.val; omega
  | ⟨1, _⟩ => show q.val = win0_2.index t (1 : Fin 2) * 64 + 1 * q.val; omega

attribute [local irreducible] Cert.MatProd.prod in
/-- What a point that writes back (an odd one) writes is its block of the product of the two argument arrays. -/
theorem flushed_eq (c : Dev nD) (t : Fin cfg0.N) (hf : (cfg0.win 2).flush t = true) :
    (dats m 0 c).flushed 2 t = ((cfg0.win 2).blk t).view.read (Elt Ideal) (prod (V m c main_arg0) (V m c main_arg1)) := by
  have h1 : t.val % 2 = 1 := (flush0_2 t).mp hf
  show (cfg0.win 2).cut (grid0.coords t) ((dats m 0 c).after 2 t) = _
  rw [after_out]
  funext y
  exact flushed_at m c t h1 y

/-- An index of the result array is in point t's block iff each coordinate is in the block's range on its axis. -/
theorem mem_blk (t : Fin cfg0.N) (i : S16384x64.Idx) :
    i ∈ ((cfg0.win 2).blk t).view.set ↔ ∀ a : Fin 2, win0_2.index t a * S256x64.size a ≤ (i a).val ∧ (i a).val < win0_2.index t a * S256x64.size a + S256x64.size a := by
  show i ∈ ((View.whole main_v0).slice (win0_2.rect t)).set ↔ _
  rw [View.set_slice_whole, Rect.mem_set_unit]
  exact Iff.rfl

/-- Every index of the result array lies in the block some odd point writes back: row r in that of point
    2 (r / 256) + 1. -/
theorem cover (i : S16384x64.Idx) : ∃ t : Fin cfg0.N, (cfg0.win 2).flush t = true ∧ i ∈ ((cfg0.win 2).blk t).view.set := by
  have hi0 : (i 0).val < 16384 := (i 0).isLt
  have hi1 : (i 1).val < 64 := (i 1).isLt
  have hN : cfg0.N = 128 := N_0
  have hlt : 2 * ((i 0).val / 256) + 1 < cfg0.N := by rw [hN]; omega
  obtain ⟨-, -, -, -, e4, e5⟩ := idx_facts ⟨2 * ((i 0).val / 256) + 1, hlt⟩
  have e4' : win0_2.index ⟨2 * ((i 0).val / 256) + 1, hlt⟩ (0 : Fin 2) = (2 * ((i 0).val / 256) + 1) / 2 := e4
  refine ⟨⟨2 * ((i 0).val / 256) + 1, hlt⟩, (flush0_2 _).mpr (by show (2 * ((i 0).val / 256) + 1) % 2 = 1; omega), ?_⟩
  rw [mem_blk]
  intro a
  match a with
  | ⟨0, _⟩ =>
    show win0_2.index ⟨2 * ((i 0).val / 256) + 1, hlt⟩ (0 : Fin 2) * 256 ≤ (i 0).val
      ∧ (i 0).val < win0_2.index ⟨2 * ((i 0).val / 256) + 1, hlt⟩ (0 : Fin 2) * 256 + 256
    omega
  | ⟨1, _⟩ =>
    show win0_2.index ⟨2 * ((i 0).val / 256) + 1, hlt⟩ (1 : Fin 2) * 64 ≤ (i 1).val
      ∧ (i 1).val < win0_2.index ⟨2 * ((i 0).val / 256) + 1, hlt⟩ (1 : Fin 2) * 64 + 64
    omega

/-- So the result array ends as the product of the two argument arrays as the region finds them. -/
theorem final (c : Dev nD) : (dats m 0 c).arrAt 2 cfg0.N = prod (V m c main_arg0) (V m c main_arg1) :=
  (dats m 0 c).arrAt_eq_of_cover 2 (prod (V m c main_arg0) (V m c main_arg1)) (flushed_eq m c) cover

/-! ## The run, read -/

/-- Every weakly fair execution of the idealized kernel terminates with the result array at the product of the
    argument arrays and the argument arrays unchanged. -/
theorem run : θ_run defs (onTc (τ := τ) (main (F := Ideal))) ⟨m, fun _ => 0, ρ⟩ fun r => ∀ c : Dev nD,
      r.2.mem ((c : Thread nD τ).loc main_v0)
        = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans (A_eq m c 0)),
      ((h c).1 1).trans (((dats m 0 c).arrAt_in 1 rfl _).trans (A_eq m c 1))⟩)
    (run_main m ρ)

end Cert.KernelIdeal.AccValue

end
-- ==== Proof.RefValue.lean ====
/-
  The reference's one operation, a contraction of the left matrix's columns with the right matrix's rows, is the
  product of the two argument arrays entry by entry: its contracted index is one coordinate k, the left operand is
  read at (row, k) and the right at (k, column).
-/
import proofs.«162947_g68917045231879_cont_9to1_m_97_20_alg».proof.Proof.Gen.ReferenceIdeal.Read
import proofs.«162947_g68917045231879_cont_9to1_m_97_20_alg».proof.Proof.Halves

noncomputable section

namespace Cert.ReferenceIdeal.RefValue

open Cert.ReferenceIdeal Cert.ReferenceIdeal.Gen Cert.MatProd
open Idealize.ShloMosaic Idealize.ShloMosaic.ValueIdx

/-- The reference's result, as a function of its two arguments, is the product. -/
theorem ref_eq (x0 : (⟨S16384x16384, .f32⟩ : BufTy).Contents (Elt Ideal)) (x1 : (⟨S16384x64, .f32⟩ : BufTy).Contents (Elt Ideal)) :
    Read.val_main_v0 (F := Ideal) x0 x1 = prod x0 x1 := by
  funext i
  rw [Read.val_main_v0_apply]
  show _ = ∑ k : Fin 16384, x0 (ix2 (i 0) k) * x1 (ix2 k (i 1))
  refine Finset.sum_congr rfl fun k _ => ?_
  have el : Read.lidx_main_v0 i k = ix2 (i 0) k :=
    funext fun a => Fin.ext (by match a with | ⟨0, _⟩ => rfl | ⟨1, _⟩ => rfl)
  have er : Read.ridx_main_v0 i k = ix2 k (i 1) :=
    funext fun a => Fin.ext (by match a with | ⟨0, _⟩ => rfl | ⟨1, _⟩ => rfl)
  rw [el, er]
  rfl

end Cert.ReferenceIdeal.RefValue

end
-- ==== Proof.Claims.lean ====
/-
  The five claims.

  The two kernel programs run, and leave their argument arrays as they were, however floats are read (the frame of
  the blocked product, proved once for the program as printed and once for its idealization). The reference is one
  host operation, and its run is its frame. The idealization rewrote nothing, so there is nothing to preserve. And
  at the ideal instance both programs end with the result array at the product of the two argument arrays: the
  kernel because each block row's two partial products add up to the full row-by-column sums, the reference because
  its contraction is that sum; the two agree entry by entry whatever extended reals the arguments hold.
-/
import proofs.«162947_g68917045231879_cont_9to1_m_97_20_alg».proof.Defs
import proofs.«162947_g68917045231879_cont_9to1_m_97_20_alg».proof.Proof.KFrame
import proofs.«162947_g68917045231879_cont_9to1_m_97_20_alg».proof.Proof.KiValue
import proofs.«162947_g68917045231879_cont_9to1_m_97_20_alg».proof.Proof.RefValue
import proofs.«162947_g68917045231879_cont_9to1_m_97_20_alg».proof.Proof.Gen.Kernel
import proofs.«162947_g68917045231879_cont_9to1_m_97_20_alg».proof.Proof.Gen.KernelIdeal
import proofs.«162947_g68917045231879_cont_9to1_m_97_20_alg».proof.Proof.Gen.ReferenceIdeal
import proofs.«162947_g68917045231879_cont_9to1_m_97_20_alg».proof.Proof.Gen.Pre_finite_inputs
import proofs.«162947_g68917045231879_cont_9to1_m_97_20_alg».proof.Proof.Gen.ReferenceIdeal.Run
import proofs.«162947_g68917045231879_cont_9to1_m_97_20_alg».proof.Proof.Gen.ReferenceIdeal.Read

noncomputable section

namespace Cert.Proof.Claims

open Idealize.ShloMosaic Idealize.ShloMosaic.TcCoe Idealize.SL.Sem

theorem frame_k : Cert.frame_Kernel := fun m ρ _ => Cert.Kernel.Acc.frame m ρ

theorem frame_ki : Cert.frame_KernelIdeal := fun m ρ _ => Cert.KernelIdeal.Acc.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the product of the (agreeing) argument arrays. -/
theorem algebraic : Cert.algebraic_KernelIdeal_ReferenceIdeal := by
  intro m ρ m' ρ' _ hagree
  refine ⟨_, Cert.KernelIdeal.AccValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.ref_eq, (hagree c).1, (hagree c).2]

end Cert.Proof.Claims

end
-- ==== Proof.lean ====
/- The proof of `Cert.Claim`: a 16384 x 16384 matrix times a 16384 x 64 matrix, computed by the kernel one block row
   of 256 rows at a time and, per block row, one half of the contracted axis at a time (the first half stored, the
   second added to it), against the reference's single contraction.
   Proof/KRuns.lean and Proof/KFrame.lean run the printed kernel's body in its two cases and give its frame;
   Proof/KiRuns.lean and Proof/KiFrame.lean do the same for its idealization, naming what the output buffer holds
   after each point; Proof/LibPlainDot.lean reads a plain matrix product at an entry as a sum over the contracted
   index; Proof/Halves.lean states the product entry by entry and splits its sum into the two halves;
   Proof/KiValue.lean shows the result array ends as that product; Proof/RefValue.lean that the reference computes
   it; Proof/Claims.lean states the five claims. Here they are assembled behind the witnesses of the programs'
   stated facts. -/
import proofs.«162947_g68917045231879_cont_9to1_m_97_20_alg».proof.Defs
import proofs.«162947_g68917045231879_cont_9to1_m_97_20_alg».proof.Proof.Claims
import proofs.«162947_g68917045231879_cont_9to1_m_97_20_alg».proof.Proof.Gen.Kernel
import proofs.«162947_g68917045231879_cont_9to1_m_97_20_alg».proof.Proof.Gen.KernelIdeal
import proofs.«162947_g68917045231879_cont_9to1_m_97_20_alg».proof.Proof.Gen.ReferenceIdeal
import proofs.«162947_g68917045231879_cont_9to1_m_97_20_alg».proof.Proof.Gen.Pre_finite_inputs
import proofs.«162947_g68917045231879_cont_9to1_m_97_20_alg».proof.Proof.Gen.ReferenceIdeal.Run
import proofs.«162947_g68917045231879_cont_9to1_m_97_20_alg».proof.Proof.Gen.ReferenceIdeal.Read
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
